-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x128 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  main_v38

def fn_part1 {F : FTy → Type} [FloatOps F] (main_arg6 : FVec F S128x128 .f32) (main_arg7 : FVec F S64x128 .f32) (main_arg8 : FVec F S64 .f32) (main_arg9 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : FVec F S800000 .f32) (main_arg3 : IVec S50000 32) (main_arg4 : FVec F S128x128 .f32) (main_arg5 : FVec F S128 .f32) (main_arg6 : FVec F S128x128 .f32) (main_arg7 : FVec F S64x128 .f32) (main_arg8 : FVec F S64 .f32) (main_arg9 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S5000x128 : Shape := ⟨2, ![5000, 128]⟩
abbrev S1x128 : Shape := ⟨2, ![1, 128]⟩
abbrev S50000x64 : Shape := ⟨2, ![50000, 64]⟩

abbrev nBuf : Space → Nat
  | .hbm => 76
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S64x128, .f32⟩
  | .hbm, ⟨8, _⟩ => ⟨S64, .f32⟩
  | .hbm, ⟨9, _⟩ => ⟨S64x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S800000x1, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S800000x1, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S_, .f32⟩
  | .hbm, ⟨67, _⟩ => ⟨S128x128, .f32⟩
  | .hbm, ⟨68, _⟩ => ⟨S_, .i32⟩
  | .hbm, ⟨69, _⟩ => ⟨S_, .f32⟩
  | .hbm, ⟨70, _⟩ => ⟨S128, .f32⟩
  | .hbm, ⟨71, _⟩ => ⟨S_, .i32⟩
  | .hbm, ⟨72, _⟩ => ⟨S_, .f32⟩
  | .hbm, ⟨73, _⟩ => ⟨S128x128, .f32⟩
  | .hbm, ⟨74, _⟩ => ⟨S50000x128, .f32⟩
  | .hbm, ⟨75, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_call0_v0 : Ref sig .tc := ⟨.hbm, 66, rfl⟩
abbrev main_v45 : Ref sig .tc := ⟨.hbm, 67, rfl⟩
abbrev main_c_9 : Ref sig .tc := ⟨.hbm, 68, rfl⟩
abbrev main_call1_v0 : Ref sig .tc := ⟨.hbm, 69, rfl⟩
abbrev main_v46 : Ref sig .tc := ⟨.hbm, 70, rfl⟩
abbrev main_c_10 : Ref sig .tc := ⟨.hbm, 71, rfl⟩
abbrev main_call2_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  transposes_S128x128_p1_0_S128x128 : S128x128.Transposes [1, 0] S128x128
  shapeCasts_S128_S1x128 : S128.ShapeCasts S1x128
  broadcasts_S1x128_S5000x128 : S1x128.Broadcasts S5000x128
  pads_S64x128_S128x128_0640_000 : S64x128.Pads (![0, 0] : Fin 2 → Nat) ![64, 0] ![0, 0] S128x128
  h_S_ : 0 < S_.numel
  pads_S64_S128_0640 : S64.Pads (![0] : Fin 1 → Nat) ![64] ![0] S128
  shapeCasts_S128x128_S128x128 : S128x128.ShapeCasts S128x128
  shapeCasts_S128_S128 : S128.ShapeCasts S128
  slices_S50000x128_S50000x64_0_0 : S50000x128.Slices ![0, 0] S50000x64
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S64x128, .f32⟩
  | .hbm, ⟨8, _⟩ => ⟨S64, .f32⟩
  | .hbm, ⟨9, _⟩ => ⟨S64x128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x1, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S128x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x1, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S128x64, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S128x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result array NAMED.

  @main is ten segments: the host operations before the first launch, the first launch, six short stretches of host
  operations (the second layer's aggregation and the three zero-paddings of its weights), the second launch, and the
  final slice. The buffer contents at each segment boundary are a fold through @main from the launch memory; the last
  boundary's contents are `W10`. Every weakly fair execution terminates, nothing faults, and in every final state each
  unscoped buffer holds what `W10` says: in particular the result buffer, which is what is added here to the
  arguments' ending unchanged.
-/
import proofs.«149706_j52544629899903_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents of it, and the ten arguments end as launched. -/
theorem run_named : θ_run defs (onTc (τ := τ) (main (F := F))) ⟨m, fun _ => 0, ρ⟩ (fun r => ∀ c : Dev nD,
      r.2.mem ((c.tc : Thread nD τ).loc main_v49) = W10 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v49 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Named

end
-- ==== Proof.SageSpec.lean ====
/-
  The mathematics of one mean-aggregation layer's dense step, on the extended reals.

  A layer takes the aggregated features `A` and the nodes' own features `R` (both N × K), two weight matrices
  `Wl`, `Wr` (n × K, stored row by output column) and a bias `b` (n), and returns, at node `p` and output
  column `q`,
      (Σ_k A[p,k] · Wl[q,k]  +  Σ_k R[p,k] · Wr[q,k])  +  b[q].
  Everything here is index by index; nothing is assumed finite: only commutativity and associativity of `+`
  on the extended reals are used, and the one law about division is stated for a divisor that is at least one.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A matrix of extended reals over literal extents. -/
abbrev Mat (r c : Nat) := (⟨2, ![r, c]⟩ : Shape).Idx → EReal
/-- A vector of extended reals over a literal extent. -/
abbrev Vc (n : Nat) := (⟨1, ![n]⟩ : Shape).Idx → EReal

/-- The dense step at node `p`, output column `q`: the aggregated row against row `q` of `Wl`, plus the node's own
    row against row `q` of `Wr`, plus the bias. -/
def combAt {N n K : Nat} (A R : Mat N K) (Wl : Mat n K) (b : Vc n) (Wr : Mat n K) (p : Fin N) (q : Fin n) : EReal :=
  (∑ k : Fin K, A (ix2 p k) * Wl (ix2 q k) + ∑ k : Fin K, R (ix2 p k) * Wr (ix2 q k)) + b (ix1 q)

/-- The dense step as a whole matrix. -/
def comb {N n K : Nat} (A R : Mat N K) (Wl : Mat n K) (b : Vc n) (Wr : Mat n K) : Mat N n :=
  fun i => combAt A R Wl b Wr (i 0) (i 1)

/-- The dense step followed by the rectifier against the zero `z`. -/
def combRelu {N n K : Nat} (z : EReal) (A R : Mat N K) (Wl : Mat n K) (b : Vc n) (Wr : Mat n K) : Mat N n :=
  fun i => max (combAt A R Wl b Wr (i 0) (i 1)) z

theorem comb_apply {N n K : Nat} (A R : Mat N K) (Wl : Mat n K) (b : Vc n) (Wr : Mat n K) (p : Fin N) (q : Fin n) :
    comb A R Wl b Wr (ix2 p q) = combAt A R Wl b Wr p q := rfl

theorem combRelu_apply {N n K : Nat} (z : EReal) (A R : Mat N K) (Wl : Mat n K) (b : Vc n) (Wr : Mat n K) (p : Fin N) (q : Fin n) :
    combRelu z A R Wl b Wr (ix2 p q) = max (combAt A R Wl b Wr p q) z := rfl

/-- The step at column `q` depends on the weights only through their rows `q`: two sets of weights that agree on
    that row (a matrix and the same matrix with rows of zeros appended, read at a column below the original height)
    give the same value. -/
theorem combAt_congr_weights {N n n' K : Nat} (A R : Mat N K) (Wl : Mat n K) (b : Vc n) (Wr : Mat n K)
    (Wl' : Mat n' K) (b' : Vc n') (Wr' : Mat n' K) (p : Fin N) (q : Fin n) (q' : Fin n')
    (hl : ∀ k, Wl (ix2 q k) = Wl' (ix2 q' k)) (hr : ∀ k, Wr (ix2 q k) = Wr' (ix2 q' k)) (hb : b (ix1 q) = b' (ix1 q')) :
    combAt A R Wl b Wr p q = combAt A R Wl' b' Wr' p q' := by
  unfold combAt
  rw [hb]
  refine congrArg (· + b' (ix1 q')) ?_
  refine congrArg₂ (· + ·) (Finset.sum_congr rfl fun k _ => by rw [hl k]) (Finset.sum_congr rfl fun k _ => by rw [hr k])

/-- The step reads `A` and `R` only along row `p`: a block of rows cut from the arrays, read at the block's own
    row number, gives the array's value at the row it was cut from. -/
theorem combAt_congr_rows {N N' n K : Nat} (A R : Mat N K) (A' R' : Mat N' K) (Wl : Mat n K) (b : Vc n) (Wr : Mat n K)
    (p : Fin N) (p' : Fin N') (q : Fin n)
    (ha : ∀ k, A (ix2 p k) = A' (ix2 p' k)) (hr : ∀ k, R (ix2 p k) = R' (ix2 p' k)) :
    combAt A R Wl b Wr p q = combAt A' R' Wl b Wr p' q := by
  unfold combAt
  refine congrArg (· + b (ix1 q)) ?_
  refine congrArg₂ (· + ·) (Finset.sum_congr rfl fun k _ => by rw [ha k]) (Finset.sum_congr rfl fun k _ => by rw [hr k])

/-- The same three summands taken in the other order: the product with `Wl`, then the bias, then the product with `Wr`. -/
theorem combAt_bias_first {N n K : Nat} (A R : Mat N K) (Wl : Mat n K) (b : Vc n) (Wr : Mat n K) (p : Fin N) (q : Fin n) :
    (∑ k : Fin K, A (ix2 p k) * Wl (ix2 q k) + b (ix1 q)) + ∑ k : Fin K, R (ix2 p k) * Wr (ix2 q k)
      = combAt A R Wl b Wr p q := by
  unfold combAt
  exact add_right_comm _ _ _

/-- The word of 1.0 denotes the real 1. -/
theorem ofBits_one_f32 : Ideal.ofBits .f32 0x3F800000#32 = 1 := by
  simp [Ideal.ofBits, Ideal.ieee, -EReal.coe_mul]; norm_num

/-- Multiplying by the reciprocal of a number that is at least one is dividing by it, for every extended real `s`
    (the divisor `max d 1` is never zero, so both sides are `s · (max d 1)⁻¹`). -/
theorem mul_recip_max_one (s d : EReal) : s * Ideal.div 1 (max d 1) = Ideal.div s (max d 1) := by
  have h : max d 1 ≠ 0 := ne_of_gt (lt_of_lt_of_le zero_lt_one (le_max_right d 1))
  unfold Ideal.div
  rw [if_neg h, if_neg h, one_mul]

end Cert.Sage

end
-- ==== Proof.KernelBody.lean ====
/-
  What one launch's body stores, read at an entry of the block.

  The body loads a 5000-row block `x0` of aggregated features, the same rows `x1` of the nodes' own features, the
  two 128 × 128 weight matrices `x2`, `x4` and the bias `x3`; rounds to bf16 (the identity on extended reals);
  transposes each weight matrix; multiplies on the matrix unit into a zero accumulator; adds the two products, then
  the bias broadcast down the rows; and (first launch only) takes the maximum with zero. At row `p`, column `q` of
  the block that is the dense step `combAt` of the loaded blocks: the product with a transposed matrix at (p, q) is
  the sum over `k` of row `p` against ROW `q` of the matrix as stored.
-/
import proofs.«149706_j52544629899903_1_alg».proof.Proof.Gen.KernelIdeal.Skeleton
import proofs.«149706_j52544629899903_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Sage

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at (p, q): row `p` of the left factor against column `q` of the right. -/
theorem mm_at (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- The product of a block with a TRANSPOSED weight matrix, at (p, q): row `p` of the block against row `q` of the matrix. -/
theorem mm_transposed_at (X : Vec Ideal S5000x128 .f32) (W : Vec Ideal S128x128 .f32) (p : Fin 5000) (q : Fin 128) :
    matmul dot_S5000x128_S128x128_S5000x128_1_0_0_1_n_n none (truncf .bf16 X bitsLt_bf16_f32)
        (transpose S128x128 [1, 0] (truncf .bf16 W bitsLt_bf16_f32) transposes_S128x128_p1_0_S128x128)
        (constant (F := Ideal) S5000x128 .f32 0x00000000#32) (ix2 p q)
      = ∑ k : Fin 128, X (ix2 p k) * W (ix2 q k) := by
  rw [mm_at]
  refine Finset.sum_congr rfl fun k _ => ?_
  rw [transpose_ix2_apply]
  rfl

/-- The bias as the body spreads it: cast to one row, the row copied down the block. -/
theorem bias_at (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The first launch's stored value at (p, q): the dense step of the loaded blocks, then the maximum with zero. -/
theorem pay0_at (x0 x1 : Vec Ideal S5000x128 .f32) (x2 x4 : Vec Ideal S128x128 .f32) (x3 : Vec Ideal S128 .f32)
    (p : Fin 5000) (q : Fin 128) :
    k0_pay1 (F := Ideal) x0 x1 x2 x4 x3 (ix2 p q)
      = max (combAt (N := 5000) (n := 128) (K := 128) x0 x1 x2 x3 x4 p q) (Ideal.ofBits .f32 0x00000000#32) := by
  unfold k0_pay1
  show max ((matmul dot_S5000x128_S128x128_S5000x128_1_0_0_1_n_n none (truncf .bf16 (shapeCast S5000x128 x0 shapeCasts_S5000x128_S5000x128) bitsLt_bf16_f32)
        (transpose S128x128 [1, 0] (truncf .bf16 x2 bitsLt_bf16_f32) transposes_S128x128_p1_0_S128x128)
        (constant (F := Ideal) S5000x128 .f32 0x00000000#32) (ix2 p q)
      + matmul dot_S5000x128_S128x128_S5000x128_1_0_0_1_n_n none (truncf .bf16 x1 bitsLt_bf16_f32)
        (transpose S128x128 [1, 0] (truncf .bf16 x4 bitsLt_bf16_f32) transposes_S128x128_p1_0_S128x128)
        (constant (F := Ideal) S5000x128 .f32 0x00000000#32) (ix2 p q))
      + broadcastTo S5000x128 (shapeCast S1x128 x3 shapeCasts_S128_S1x128) broadcasts_S1x128_S5000x128 (ix2 p q))
      (Ideal.ofBits .f32 0x00000000#32) = _
  rw [shapeCast_self, mm_transposed_at, mm_transposed_at, bias_at]
  rfl

/-- The second launch's stored value at (p, q): the dense step of the loaded blocks. -/
theorem pay1_at (x0 x1 : Vec Ideal S5000x128 .f32) (x2 x4 : Vec Ideal S128x128 .f32) (x3 : Vec Ideal S128 .f32)
    (p : Fin 5000) (q : Fin 128) :
    k1_pay1 (F := Ideal) x0 x1 x2 x4 x3 (ix2 p q) = combAt (N := 5000) (n := 128) (K := 128) x0 x1 x2 x3 x4 p q := by
  unfold k1_pay1
  show (matmul dot_S5000x128_S128x128_S5000x128_1_0_0_1_n_n none (truncf .bf16 (shapeCast S5000x128 x0 shapeCasts_S5000x128_S5000x128) bitsLt_bf16_f32)
        (transpose S128x128 [1, 0] (truncf .bf16 (shapeCast S128x128 x2 shapeCasts_S128x128_S128x128) bitsLt_bf16_f32) transposes_S128x128_p1_0_S128x128)
        (constant (F := Ideal) S5000x128 .f32 0x00000000#32) (ix2 p q)
      + matmul dot_S5000x128_S128x128_S5000x128_1_0_0_1_n_n none (truncf .bf16 (shapeCast S5000x128 x1 shapeCasts_S5000x128_S5000x128) bitsLt_bf16_f32)
        (transpose S128x128 [1, 0] (truncf .bf16 (shapeCast S128x128 x4 shapeCasts_S128x128_S128x128) bitsLt_bf16_f32) transposes_S128x128_p1_0_S128x128)
        (constant (F := Ideal) S5000x128 .f32 0x00000000#32) (ix2 p q))
      + broadcastTo S5000x128 (shapeCast S1x128 (shapeCast S128 x3 shapeCasts_S128_S128) shapeCasts_S128_S1x128) broadcasts_S1x128_S5000x128 (ix2 p q) = _
  rw [shapeCast_self, shapeCast_self, shapeCast_self, shapeCast_self, shapeCast_self, mm_transposed_at, mm_transposed_at, bias_at]
  rfl

end Cert.KernelIdeal.Body

end
-- ==== Proof.KernelBlocks.lean ====
/-
  From blocks to arrays: what each launch leaves in its output array.

  A launch walks ten grid points; point `t` stages rows 5000 t … 5000 t + 4999 of the aggregated features and of the
  nodes' own features, the whole weight matrices and the whole bias, runs the body, and writes rows 5000 t … 5000 t + 4999
  of the output back. The body's value at a row depends on its blocks only along that row, so what point `t` writes back
  is block `t` of ONE whole-array function — the layer of the specification applied to the arrays as the launch finds
  them — and the ten blocks tile the 50000 rows. Stated for any contents `V` the launch may be entered from.
-/
import proofs.«149706_j52544629899903_1_alg».proof.Proof.Gen.KernelIdeal.Frame
import proofs.«149706_j52544629899903_1_alg».proof.Proof.KernelBody
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem Cert.Sage
open Idealize.ShloMosaic.Pipeline (Dat Cfg Window)

/-- The zero the rectifier compares with. -/
abbrev z0 : EReal := Ideal.ofBits .f32 0x00000000#32

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-! ## Launch 0 -/

/-- The printed block-index maps of launch 0, decided over its ten grid points: the two row-blocked inputs and the output
    sit at block `t` of the rows, the weights and the bias at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : t.val < 10 := lt_of_lt_of_eq t.isLt N_0

/-- Block `t` of the aggregated features, at its row `p`: row `5000 t + p` of the array as the launch finds it. -/
theorem blkA0 (c : Dev nD) (t : Fin cfg0.N) (p : Fin 5000) (k : Fin 128) (h : t.val * 5000 + p.val < 50000) :
    iblk0 V c 0 t (ix2 p k) = V c main_v27 (ix2 ⟨t.val * 5000 + p.val, h⟩ k) := by
  obtain ⟨e0, e1, -⟩ := idx0 t
  show V c main_v27 (((cfg0.win 0).blk t).view.emb (ix2 p k)) = V c main_v27 _
  refine congrArg (V c main_v27) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Block `t` of the nodes' own features, likewise. -/
theorem blkR0 (c : Dev nD) (t : Fin cfg0.N) (p : Fin 5000) (k : Fin 128) (h : t.val * 5000 + p.val < 50000) :
    iblk0 V c 1 t (ix2 p k) = V c main_arg0 (ix2 ⟨t.val * 5000 + p.val, h⟩ k) := by
  obtain ⟨-, -, e0, e1, -⟩ := idx0 t
  show V c main_arg0 (((cfg0.win 1).blk t).view.emb (ix2 p k)) = V c main_arg0 _
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The first weight matrix's one block is the whole matrix. -/
theorem blkWl0 (c : Dev nD) (t : Fin cfg0.N) (q k : Fin 128) :
    iblk0 V c 2 t (ix2 q k) = V c main_arg4 (ix2 q k) := by
  obtain ⟨-, -, -, -, e0, e1, -⟩ := idx0 t
  show V c main_arg4 (((cfg0.win 2).blk t).view.emb (ix2 q k)) = V c main_arg4 _
  refine congrArg (V c main_arg4) (funext fun a => Fin.ext ?_)
  match a with
  | ⟨0, _⟩ => show win0_2.index t (0 : Fin 2) * 128 + 1 * q.val = q.val; omega
  | ⟨1, _⟩ => show win0_2.index t (1 : Fin 2) * 128 + 1 * k.val = k.val; omega

/-- The bias's one block is the whole bias. -/
theorem blkB0 (c : Dev nD) (t : Fin cfg0.N) (q : Fin 128) :
    iblk0 V c 3 t (ix1 q) = V c main_arg5 (ix1 q) := by
  obtain ⟨-, -, -, -, -, -, e0, -⟩ := idx0 t
  show V c main_arg5 (((cfg0.win 3).blk t).view.emb (ix1 q)) = V c main_arg5 _
  refine congrArg (V c main_arg5) (funext fun a => Fin.ext ?_)
  match a with
  | ⟨0, _⟩ => show win0_3.index t (0 : Fin 1) * 128 + 1 * q.val = q.val; omega

/-- The second weight matrix's one block is the whole matrix. -/
theorem blkWr0 (c : Dev nD) (t : Fin cfg0.N) (q k : Fin 128) :
    iblk0 V c 4 t (ix2 q k) = V c main_arg6 (ix2 q k) := by
  obtain ⟨-, -, -, -, -, -, -, e0, e1, -⟩ := idx0 t
  show V c main_arg6 (((cfg0.win 4).blk t).view.emb (ix2 q k)) = V c main_arg6 _
  refine congrArg (V c main_arg6) (funext fun a => Fin.ext ?_)
  match a with
  | ⟨0, _⟩ => show win0_4.index t (0 : Fin 2) * 128 + 1 * q.val = q.val; omega
  | ⟨1, _⟩ => show win0_4.index t (1 : Fin 2) * 128 + 1 * k.val = k.val; omega

/-- What the body stores at point `t`, at (p, q): the layer's value at row `5000 t + p`, column `q`, of the arrays as the
    launch finds them — the body's dense step reads its blocks only along row `p` and along row `q` of the weights. -/
theorem stored0 (c : Dev nD) (t : Fin cfg0.N) (p : Fin 5000) (q : Fin 128) (h : t.val * 5000 + p.val < 50000) :
    k0_pay1 (F := Ideal) (iblk0 V c 0 t) (iblk0 V c 1 t) (iblk0 V c 2 t) (iblk0 V c 4 t) (iblk0 V c 3 t) (ix2 p q)
      = max (combAt (N := 50000) (n := 128) (K := 128) (V c main_v27) (V c main_arg0) (V c main_arg4) (V c main_arg5) (V c main_arg6) ⟨t.val * 5000 + p.val, h⟩ q) z0 := by
  refine (Body.pay0_at (iblk0 V c 0 t) (iblk0 V c 1 t) (iblk0 V c 2 t) (iblk0 V c 4 t) (iblk0 V c 3 t) p q).trans ?_
  refine congrArg (max · z0) ?_
  refine (combAt_congr_rows (iblk0 V c 0 t) (iblk0 V c 1 t) (V c main_v27) (V c main_arg0) (iblk0 V c 2 t) (iblk0 V c 3 t) (iblk0 V c 4 t)
    p ⟨t.val * 5000 + p.val, h⟩ q (fun k => blkA0 V c t p k h) (fun k => blkR0 V c t p k h)).trans ?_
  exact combAt_congr_weights (V c main_v27) (V c main_arg0) (iblk0 V c 2 t) (iblk0 V c 3 t) (iblk0 V c 4 t)
    (V c main_arg4) (V c main_arg5) (V c main_arg6) ⟨t.val * 5000 + p.val, h⟩ q q
    (fun k => blkWl0 V c t q k) (fun k => blkWr0 V c t q k) (blkB0 V c t q)

/-- WHAT POINT `t` WRITES BACK is block `t` of the layer's value of the arrays as the launch finds them. -/
theorem flushed0 (c : Dev nD) (t : Fin cfg0.N) :
    (dat0 V c).flushed 5 t = ((cfg0.win 5).blk t).view.read (Elt Ideal)
      (combRelu (N := 50000) (n := 128) (K := 128) z0 (V c main_v27) (V c main_arg0) (V c main_arg4) (V c main_arg5) (V c main_arg6)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S128) hz1]
  obtain ⟨-, -, -, -, -, -, -, -, -, e0, e1⟩ := idx0 t
  have ht := lt0 t
  funext j
  obtain ⟨p, q, rfl⟩ : ∃ (p : Fin 5000) (q : Fin 128), j = ix2 p q := ⟨j 0, j 1, eq_ix2 j⟩
  have h : t.val * 5000 + p.val < 50000 := by have := p.isLt; omega
  refine (stored0 V c t p q h).trans ?_
  show _ = combRelu (N := 50000) (n := 128) (K := 128) z0 (V c main_v27) (V c main_arg0) (V c main_arg4) (V c main_arg5) (V c main_arg6) (((cfg0.win 5).blk t).view.emb (ix2 p q))
  rw [← combRelu_apply]
  refine congrArg (combRelu (N := 50000) (n := 128) (K := 128) z0 (V c main_v27) (V c main_arg0) (V c main_arg4) (V c main_arg5) (V c main_arg6)) (funext fun a => Fin.ext ?_)
  match a with
  | ⟨0, _⟩ => show t.val * 5000 + p.val = win0_5.index t (0 : Fin 2) * 5000 + 1 * p.val; omega
  | ⟨1, _⟩ => show q.val = win0_5.index t (1 : Fin 2) * 128 + 1 * q.val; omega

/-- A row-column pair of the output array lies in point `t`'s block iff each coordinate is in the block's range. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every entry of the output array is written back by the point whose number is its row divided by 5000. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := by rw [show cfg0.N = 10 from N_0]; omega
  refine ⟨⟨(i 0).val / 5000, hN⟩, flush0_5 _, ?_⟩
  obtain ⟨-, -, -, -, -, -, -, -, -, e0, e1⟩ := idx0 ⟨(i 0).val / 5000, hN⟩
  rw [mem_blk0]
  intro a
  match a with
  | ⟨0, _⟩ => show win0_5.index ⟨(i 0).val / 5000, hN⟩ (0 : Fin 2) * 5000 ≤ (i 0).val ∧ (i 0).val < win0_5.index ⟨(i 0).val / 5000, hN⟩ (0 : Fin 2) * 5000 + 5000; rw [e0]; show (i 0).val / 5000 * 5000 ≤ (i 0).val ∧ (i 0).val < (i 0).val / 5000 * 5000 + 5000; omega
  | ⟨1, _⟩ => show win0_5.index ⟨(i 0).val / 5000, hN⟩ (1 : Fin 2) * 128 ≤ (i 1).val ∧ (i 1).val < win0_5.index ⟨(i 0).val / 5000, hN⟩ (1 : Fin 2) * 128 + 128; rw [e1]; omega

/-- THE OUTPUT ARRAY after launch 0: the layer's value of the arrays as the launch finds them. -/
theorem final0 (c : Dev nD) :
    (dat0 V c).arrAt 5 cfg0.N = combRelu (N := 50000) (n := 128) (K := 128) z0 (V c main_v27) (V c main_arg0) (V c main_arg4) (V c main_arg5) (V c main_arg6) :=
  (dat0 V c).arrAt_eq_of_cover 5 _ (fun t _ => flushed0 V c t) cover0

/-! ## Launch 1 -/

/-- The printed block-index maps of launch 1, decided over its ten grid points: the two row-blocked inputs and the output
    sit at block `t` of the rows, the weights and the bias at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) : t.val < 10 := lt_of_lt_of_eq t.isLt N_1

/-- Block `t` of the aggregated features, at its row `p`: row `5000 t + p` of the array as the launch finds it. -/
theorem blkA1 (c : Dev nD) (t : Fin cfg1.N) (p : Fin 5000) (k : Fin 128) (h : t.val * 5000 + p.val < 50000) :
    iblk1 V c 0 t (ix2 p k) = V c main_v44 (ix2 ⟨t.val * 5000 + p.val, h⟩ k) := by
  obtain ⟨e0, e1, -⟩ := idx1 t
  show V c main_v44 (((cfg1.win 0).blk t).view.emb (ix2 p k)) = V c main_v44 _
  refine congrArg (V c main_v44) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Block `t` of the nodes' own features, likewise. -/
theorem blkR1 (c : Dev nD) (t : Fin cfg1.N) (p : Fin 5000) (k : Fin 128) (h : t.val * 5000 + p.val < 50000) :
    iblk1 V c 1 t (ix2 p k) = V c main_v28 (ix2 ⟨t.val * 5000 + p.val, h⟩ k) := by
  obtain ⟨-, -, e0, e1, -⟩ := idx1 t
  show V c main_v28 (((cfg1.win 1).blk t).view.emb (ix2 p k)) = V c main_v28 _
  refine congrArg (V c main_v28) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight matrix's one block is the whole matrix. -/
theorem blkWl1 (c : Dev nD) (t : Fin cfg1.N) (q k : Fin 128) :
    iblk1 V c 2 t (ix2 q k) = V c main_v45 (ix2 q k) := by
  obtain ⟨-, -, -, -, e0, e1, -⟩ := idx1 t
  show V c main_v45 (((cfg1.win 2).blk t).view.emb (ix2 q k)) = V c main_v45 _
  refine congrArg (V c main_v45) (funext fun a => Fin.ext ?_)
  match a with
  | ⟨0, _⟩ => show win1_2.index t (0 : Fin 2) * 128 + 1 * q.val = q.val; omega
  | ⟨1, _⟩ => show win1_2.index t (1 : Fin 2) * 128 + 1 * k.val = k.val; omega

/-- The bias's one block is the whole bias. -/
theorem blkB1 (c : Dev nD) (t : Fin cfg1.N) (q : Fin 128) :
    iblk1 V c 3 t (ix1 q) = V c main_v46 (ix1 q) := by
  obtain ⟨-, -, -, -, -, -, e0, -⟩ := idx1 t
  show V c main_v46 (((cfg1.win 3).blk t).view.emb (ix1 q)) = V c main_v46 _
  refine congrArg (V c main_v46) (funext fun a => Fin.ext ?_)
  match a with
  | ⟨0, _⟩ => show win1_3.index t (0 : Fin 1) * 128 + 1 * q.val = q.val; omega

/-- The second weight matrix's one block is the whole matrix. -/
theorem blkWr1 (c : Dev nD) (t : Fin cfg1.N) (q k : Fin 128) :
    iblk1 V c 4 t (ix2 q k) = V c main_v47 (ix2 q k) := by
  obtain ⟨-, -, -, -, -, -, -, e0, e1, -⟩ := idx1 t
  show V c main_v47 (((cfg1.win 4).blk t).view.emb (ix2 q k)) = V c main_v47 _
  refine congrArg (V c main_v47) (funext fun a => Fin.ext ?_)
  match a with
  | ⟨0, _⟩ => show win1_4.index t (0 : Fin 2) * 128 + 1 * q.val = q.val; omega
  | ⟨1, _⟩ => show win1_4.index t (1 : Fin 2) * 128 + 1 * k.val = k.val; omega

/-- What the body stores at point `t`, at (p, q): the layer's value at row `5000 t + p`, column `q`, of the arrays as the
    launch finds them — the body's dense step reads its blocks only along row `p` and along row `q` of the weights. -/
theorem stored1 (c : Dev nD) (t : Fin cfg1.N) (p : Fin 5000) (q : Fin 128) (h : t.val * 5000 + p.val < 50000) :
    k1_pay1 (F := Ideal) (iblk1 V c 0 t) (iblk1 V c 1 t) (iblk1 V c 2 t) (iblk1 V c 4 t) (iblk1 V c 3 t) (ix2 p q)
      = combAt (N := 50000) (n := 128) (K := 128) (V c main_v44) (V c main_v28) (V c main_v45) (V c main_v46) (V c main_v47) ⟨t.val * 5000 + p.val, h⟩ q := by
  refine (Body.pay1_at (iblk1 V c 0 t) (iblk1 V c 1 t) (iblk1 V c 2 t) (iblk1 V c 4 t) (iblk1 V c 3 t) p q).trans ?_

  refine (combAt_congr_rows (iblk1 V c 0 t) (iblk1 V c 1 t) (V c main_v44) (V c main_v28) (iblk1 V c 2 t) (iblk1 V c 3 t) (iblk1 V c 4 t)
    p ⟨t.val * 5000 + p.val, h⟩ q (fun k => blkA1 V c t p k h) (fun k => blkR1 V c t p k h)).trans ?_
  exact combAt_congr_weights (V c main_v44) (V c main_v28) (iblk1 V c 2 t) (iblk1 V c 3 t) (iblk1 V c 4 t)
    (V c main_v45) (V c main_v46) (V c main_v47) ⟨t.val * 5000 + p.val, h⟩ q q
    (fun k => blkWl1 V c t q k) (fun k => blkWr1 V c t q k) (blkB1 V c t q)

/-- WHAT POINT `t` WRITES BACK is block `t` of the layer's value of the arrays as the launch finds them. -/
theorem flushed1 (c : Dev nD) (t : Fin cfg1.N) :
    (dat1 V c).flushed 5 t = ((cfg1.win 5).blk t).view.read (Elt Ideal)
      (comb (N := 50000) (n := 128) (K := 128) (V c main_v44) (V c main_v28) (V c main_v45) (V c main_v46) (V c main_v47)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S128) hz1]
  obtain ⟨-, -, -, -, -, -, -, -, -, e0, e1⟩ := idx1 t
  have ht := lt1 t
  funext j
  obtain ⟨p, q, rfl⟩ : ∃ (p : Fin 5000) (q : Fin 128), j = ix2 p q := ⟨j 0, j 1, eq_ix2 j⟩
  have h : t.val * 5000 + p.val < 50000 := by have := p.isLt; omega
  refine (stored1 V c t p q h).trans ?_
  show _ = comb (N := 50000) (n := 128) (K := 128) (V c main_v44) (V c main_v28) (V c main_v45) (V c main_v46) (V c main_v47) (((cfg1.win 5).blk t).view.emb (ix2 p q))
  rw [← comb_apply]
  refine congrArg (comb (N := 50000) (n := 128) (K := 128) (V c main_v44) (V c main_v28) (V c main_v45) (V c main_v46) (V c main_v47)) (funext fun a => Fin.ext ?_)
  match a with
  | ⟨0, _⟩ => show t.val * 5000 + p.val = win1_5.index t (0 : Fin 2) * 5000 + 1 * p.val; omega
  | ⟨1, _⟩ => show q.val = win1_5.index t (1 : Fin 2) * 128 + 1 * q.val; omega

/-- A row-column pair of the output array lies in point `t`'s block iff each coordinate is in the block's range. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v48).slice (win1_5.rect t)).set ↔ _
  rw [View.set_slice_whole, Rect.mem_set_unit]
  exact Iff.rfl

/-- Every entry of the output array is written back by the point whose number is its row divided by 5000. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := by rw [show cfg1.N = 10 from N_1]; omega
  refine ⟨⟨(i 0).val / 5000, hN⟩, flush1_5 _, ?_⟩
  obtain ⟨-, -, -, -, -, -, -, -, -, e0, e1⟩ := idx1 ⟨(i 0).val / 5000, hN⟩
  rw [mem_blk1]
  intro a
  match a with
  | ⟨0, _⟩ => show win1_5.index ⟨(i 0).val / 5000, hN⟩ (0 : Fin 2) * 5000 ≤ (i 0).val ∧ (i 0).val < win1_5.index ⟨(i 0).val / 5000, hN⟩ (0 : Fin 2) * 5000 + 5000; rw [e0]; show (i 0).val / 5000 * 5000 ≤ (i 0).val ∧ (i 0).val < (i 0).val / 5000 * 5000 + 5000; omega
  | ⟨1, _⟩ => show win1_5.index ⟨(i 0).val / 5000, hN⟩ (1 : Fin 2) * 128 ≤ (i 1).val ∧ (i 1).val < win1_5.index ⟨(i 0).val / 5000, hN⟩ (1 : Fin 2) * 128 + 128; rw [e1]; omega

/-- THE OUTPUT ARRAY after launch 1: the layer's value of the arrays as the launch finds them. -/
theorem final1 (c : Dev nD) :
    (dat1 V c).arrAt 5 cfg1.N = comb (N := 50000) (n := 128) (K := 128) (V c main_v44) (V c main_v28) (V c main_v45) (V c main_v46) (V c main_v47) :=
  (dat1 V c).arrAt_eq_of_cover 5 _ (fun t _ => flushed1 V c t) cover1

end Cert.KernelIdeal.Blocks

end
-- ==== Proof.RefLayers.lean ====
/-
  The reference, layer by layer, as the dense step of the specification.

  The reference's first layer is  relu((A · W₄ᵀ + b₅) + x · W₆ᵀ)  with `A` the mean-aggregated input features, and its
  second layer is  (A' · W₇ᵀ + b₈) + h · W₉ᵀ  with `h` the first layer's result and `A'` its mean aggregation. Read at
  an entry, a product with a transposed matrix is a sum over `k` of a row against a ROW of the matrix as stored, so each
  layer is the dense step `combAt` with its three summands in the other order.

  The mean aggregation divides the scattered sums by `max(deg, 1)`; multiplying instead by `1 / max(deg, 1)` gives the
  same array (`aggMul_eq_aggDiv`), since `max(deg, 1)` is never zero. The scatter, the gather and the degree count are
  never opened: they are the same operations of the same operands on both sides.
-/
import proofs.«149706_j52544629899903_1_alg».proof.Proof.Gen.ReferenceIdeal.Read
import proofs.«149706_j52544629899903_1_alg».proof.Proof.SageSpec

noncomputable section

namespace Cert.ReferenceIdeal.Layers

open Cert.ReferenceIdeal Cert.ReferenceIdeal.Gen Cert.ReferenceIdeal.Read
open Idealize.ShloMosaic Idealize.ShloMosaic.ValueIdx Cert.Sage

/-- The float arrays of a shape, at the extended reals. -/
abbrev C (S : Shape) := (⟨S, .f32⟩ : BufTy).Contents (Elt Ideal)
/-- The 32-bit integer arrays of a shape. -/
abbrev CI (S : Shape) := (⟨S, .i32⟩ : BufTy).Contents (Elt Ideal)

/-- The zero the rectifier compares with. -/
abbrev z0 : EReal := Ideal.ofBits .f32 0x00000000#32

/-! ## The mean aggregation of any feature array `h` -/

/-- The rows of `h` the edges' sources name, each scaled by its edge's weight. -/
def msgs (h : C S50000x128) (x1 : CI S2x800000) (x2 : C S800000) : C S800000x128 :=
  mulf (F := Ideal) (φ := .f32) (Host.gather gather_S50000x128_S800000x1_S800000x128_1_0_n_n_0_1_1128 h (val_main_v9 (F := Ideal) x1) : C S800000x128)
    (val_main_v12 (F := Ideal) x2)

/-- Those rows summed into the rows their edges' destinations name, from zero. -/
def scat (h : C S50000x128) (x1 : CI S2x800000) (x2 : C S800000) : C S50000x128 :=
  Host.scatterAdd (F := Ideal) (φ := .f32) scatter_S50000x128_S800000x1_S800000x128_1_0_0_1 (val_main_v14 (F := Ideal)) (val_main_v15 (F := Ideal) x1)
    (msgs h x1 x2)

/-- `1 / max(deg, 1)` per node. -/
def recipDeg (x1 : CI S2x800000) : C S50000 :=
  Host.divf (F := Ideal) (φ := .f32) (val_main_v21 (F := Ideal)) (val_main_v22 (F := Ideal) x1)

/-- The scattered sums of the weighted gathered rows of `h`, divided by `max(deg, 1)` along the rows. -/
def aggDiv (h : C S50000x128) (x1 : CI S2x800000) (x2 : C S800000) : C S50000x128 :=
  Host.divf (F := Ideal) (φ := .f32) (scat h x1 x2) (val_main_v24 (F := Ideal) x1)

/-- The same sums multiplied by `1 / max(deg, 1)` along the rows. -/
def aggMul (h : C S50000x128) (x1 : CI S2x800000) (x2 : C S800000) : C S50000x128 :=
  mulf (F := Ideal) (φ := .f32) (scat h x1 x2)
    (broadcastInDim S50000x128 ![0, 1] bcast_S50000x1_S50000x128_0_1 (broadcastInDim S50000x1 ![0] bcast_S50000_S50000x1_0
      (recipDeg x1)))

/-- A vector over the nodes spread along the feature axis, read at (p, q): the vector at `p`. -/
theorem spread_at (y : FVec Ideal S50000 .f32) (p : Fin 50000) (q : Fin 128) :
    broadcastInDim S50000x128 ![0, 1] bcast_S50000x1_S50000x128_0_1 (broadcastInDim S50000x1 ![0] bcast_S50000_S50000x1_0 y) (ix2 p q)
      = y (ix1 p) := by
  refine (broadcastInDim_apply _ bcast_S50000x1_S50000x128_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])).trans ?_
  exact broadcastInDim_apply _ bcast_S50000_S50000x1_0 y (ix2 p (0 : Fin 1)) (ix1 p) (fun a => match a with
    | ⟨0, _⟩ => by show p.val = if (50000 : Nat) = 1 then 0 else p.val; rw [if_neg (by decide)])

/-- The all-ones vector at any node is the real 1. -/
theorem ones_at (i : S50000.Idx) : val_main_v21 (F := Ideal) i = 1 := by
  rw [val_main_v21_apply, val_main_cst_3_apply]
  exact ofBits_one_f32

/-- The host's quotient of two arrays, at an entry. -/
theorem hdiv_at {s : Shape} (a b : FVec Ideal s .f32) (i : s.Idx) : Host.divf a b i = Ideal.div (a i) (b i) := rfl

/-- For any array `S` of sums and any degree count `g`: `S` times `1 / max(g, 1)` spread along the rows is `S` divided by
    `max(g, 1)` spread along the rows. -/
theorem mul_recip_spread (S : FVec Ideal S50000x128 .f32) (g : FVec Ideal S50000 .f32) :
    mulf S (broadcastInDim S50000x128 ![0, 1] bcast_S50000x1_S50000x128_0_1 (broadcastInDim S50000x1 ![0] bcast_S50000_S50000x1_0
        (Host.divf (val_main_v21 (F := Ideal)) (maximumf g (val_main_v21 (F := Ideal))))))
      = Host.divf S (broadcastInDim S50000x128 ![0, 1] bcast_S50000x1_S50000x128_0_1 (broadcastInDim S50000x1 ![0] bcast_S50000_S50000x1_0
        (maximumf g (val_main_v21 (F := Ideal))))) := by
  funext i
  obtain ⟨p, q, rfl⟩ : ∃ (p : Fin 50000) (q : Fin 128), i = ix2 p q := ⟨i 0, i 1, eq_ix2 i⟩
  refine (mulf_apply _ _ _).trans ?_
  refine Eq.trans ?_ (hdiv_at _ _ _).symm
  rw [spread_at, spread_at, hdiv_at, maximumf_apply, ones_at]
  exact mul_recip_max_one _ _

/-- Multiplying the scattered sums by `1 / max(deg, 1)` is dividing them by `max(deg, 1)`. -/
theorem aggMul_eq_aggDiv (h : C S50000x128) (x1 : CI S2x800000) (x2 : C S800000) : aggMul h x1 x2 = aggDiv h x1 x2 := by
  unfold aggMul aggDiv recipDeg
  exact mul_recip_spread (scat h x1 x2) (val_main_v20 (F := Ideal) x1)

/-- The reference's first aggregation is the mean aggregation of the input features. -/
theorem v25_eq (x0 : C S50000x128) (x1 : CI S2x800000) (x2 : C S800000) :
    val_main_v25 (F := Ideal) x0 x1 x2 = aggDiv x0 x1 x2 := rfl

/-- The reference's second aggregation is the mean aggregation of the first layer's result. -/
theorem v56_eq (x0 : C S50000x128) (x1 : CI S2x800000) (x2 : C S800000) (x4 : C S128x128) (x5 : C S128) (x6 : C S128x128) :
    val_main_v56 (F := Ideal) x0 x1 x2 x4 x5 x6 = aggDiv (val_main_v34 (F := Ideal) x0 x1 x2 x4 x5 x6) x1 x2 := rfl

/-! ## The two layers -/

/-- Layer 1: the rectified dense step of the aggregated and the own features. -/
theorem layer1 (x0 : C S50000x128) (x1 : CI S2x800000) (x2 : C S800000) (x4 : C S128x128) (x5 : C S128) (x6 : C S128x128) :
    val_main_v34 (F := Ideal) x0 x1 x2 x4 x5 x6
      = combRelu (N := 50000) (n := 128) (K := 128) z0 (val_main_v25 (F := Ideal) x0 x1 x2) x0 x4 x5 x6 := by
  funext i
  obtain ⟨p, q, rfl⟩ : ∃ (p : Fin 50000) (q : Fin 128), i = ix2 p q := ⟨i 0, i 1, eq_ix2 i⟩
  rw [combRelu_apply, ← combAt_bias_first]
  rw [val_main_v34_apply, val_main_v33_apply, val_main_v30_apply, val_main_v27_apply, val_main_v32_apply, val_main_v29_apply,
    val_main_v28_apply, val_main_call0_v0_apply, val_main_call0_cst_apply]
  simp only [val_main_v26_apply, val_main_v31_apply]
  have e1 : ∀ k : Fin 128, lidx_main_v27 (ix2 p q) k = ix2 p k := fun k => funext fun a => Fin.ext (by
    match a with | ⟨0, _⟩ => rfl | ⟨1, _⟩ => rfl)
  have e2 : ∀ k : Fin 128, idx_main_v26 (ridx_main_v27 (ix2 p q) k) = ix2 q k := fun k => funext fun a => Fin.ext (by
    match a with | ⟨0, _⟩ => rfl | ⟨1, _⟩ => rfl)
  have e3 : ∀ k : Fin 128, lidx_main_v32 (ix2 p q) k = ix2 p k := fun k => funext fun a => Fin.ext (by
    match a with | ⟨0, _⟩ => rfl | ⟨1, _⟩ => rfl)
  have e4 : ∀ k : Fin 128, idx_main_v31 (ridx_main_v32 (ix2 p q) k) = ix2 q k := fun k => funext fun a => Fin.ext (by
    match a with | ⟨0, _⟩ => rfl | ⟨1, _⟩ => rfl)
  have e5 : idx_main_v28 (idx_main_v29 (ix2 p q)) = ix1 q := funext fun a => Fin.ext (by
    match a with | ⟨0, _⟩ => rfl)
  simp only [e1, e2, e3, e4, e5]
  rfl

/-- Layer 2: the dense step of the aggregated first-layer result and the first-layer result, 64 output columns. -/
theorem layer2 (x0 : C S50000x128) (x1 : CI S2x800000) (x2 : C S800000) (x4 : C S128x128) (x5 : C S128) (x6 : C S128x128)
    (x7 : C S64x128) (x8 : C S64) (x9 : C S64x128) :
    val_main_v64 (F := Ideal) x0 x1 x2 x4 x5 x6 x7 x8 x9
      = comb (N := 50000) (n := 64) (K := 128) (val_main_v56 (F := Ideal) x0 x1 x2 x4 x5 x6) (val_main_v34 (F := Ideal) x0 x1 x2 x4 x5 x6) x7 x8 x9 := by
  funext i
  obtain ⟨p, q, rfl⟩ : ∃ (p : Fin 50000) (q : Fin 64), i = ix2 p q := ⟨i 0, i 1, eq_ix2 i⟩
  rw [comb_apply, ← combAt_bias_first]
  rw [val_main_v64_apply, val_main_v61_apply, val_main_v58_apply, val_main_v63_apply, val_main_v60_apply, val_main_v59_apply]
  simp only [val_main_v57_apply, val_main_v62_apply]
  have e1 : ∀ k : Fin 128, lidx_main_v58 (ix2 p q) k = ix2 p k := fun k => funext fun a => Fin.ext (by
    match a with | ⟨0, _⟩ => rfl | ⟨1, _⟩ => rfl)
  have e2 : ∀ k : Fin 128, idx_main_v57 (ridx_main_v58 (ix2 p q) k) = ix2 q k := fun k => funext fun a => Fin.ext (by
    match a with | ⟨0, _⟩ => rfl | ⟨1, _⟩ => rfl)
  have e3 : ∀ k : Fin 128, lidx_main_v63 (ix2 p q) k = ix2 p k := fun k => funext fun a => Fin.ext (by
    match a with | ⟨0, _⟩ => rfl | ⟨1, _⟩ => rfl)
  have e4 : ∀ k : Fin 128, idx_main_v62 (ridx_main_v63 (ix2 p q) k) = ix2 q k := fun k => funext fun a => Fin.ext (by
    match a with | ⟨0, _⟩ => rfl | ⟨1, _⟩ => rfl)
  have e5 : idx_main_v59 (idx_main_v60 (ix2 p q)) = ix1 q := funext fun a => Fin.ext (by
    match a with | ⟨0, _⟩ => rfl)
  simp only [e1, e2, e3, e4, e5]
  rfl

end Cert.ReferenceIdeal.Layers

end
-- ==== Proof.KernelHost.lean ====
/-
  The idealized kernel's host side, and its result as the reference's value.

  Before the first launch the host gathers the edges' source rows of `x`, scales them by the edge weights, sums them into
  their destination rows, and multiplies by `1 / max(deg, 1)`: the first launch finds the mean aggregation of `x`
  (`aggMul`, equal to the reference's quotient form) and leaves  h = relu(layer 1).  Between the launches the host does
  the same to `h` and appends 64 zero rows to the second layer's two weight matrices and 64 zeros to its bias; the second
  launch leaves the dense step of those, 128 columns wide, and the host keeps the first 64 columns. A column below 64
  reads only rows below 64 of the padded weights — the original rows — so the kept columns are the reference's second layer.
-/
import proofs.«149706_j52544629899903_1_alg».proof.Proof.Gen.KernelIdeal.Frame
import proofs.«149706_j52544629899903_1_alg».proof.Proof.KernelBlocks
import proofs.«149706_j52544629899903_1_alg».proof.Proof.RefLayers
import Idealize.ShloMosaic.Lib.StableHlo.Run
import Idealize.ShloMosaic.Lib.KernelVsHost
import Idealize.ShloMosaic.Lib.ValueLayout

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem Idealize.ShloMosaic.StableHlo Cert.Sage
open Cert.ReferenceIdeal.Layers (aggMul aggDiv aggMul_eq_aggDiv v25_eq v56_eq layer1 layer2)
open Cert.ReferenceIdeal.Read (val_main_v25 val_main_v34 val_main_v56 val_main_v64)

variable (m : (ℓ : Loc nD τ sig) → Buf (Elt Ideal) ℓ) (ρ : Dev nD → PrngReg)

/-! ## What the first launch finds -/

set_option maxHeartbeats 2000000 in
/-- The aggregated features the first launch is entered with: the mean aggregation of `x`, in its multiply-by-reciprocal form. -/
theorem entry0_agg (c : Dev nD) :
    W1 m ρ c (Proc.devRef .tc main_v27)
      = aggMul (m ((c.tc : Thread nD τ).loc main_arg0)) (m ((c.tc : Thread nD τ).loc main_arg1)) (m ((c.tc : Thread nD τ).loc main_arg2)) := by
  dsimp only [W1, hostOps0]
  after_results <;> rfl

set_option maxHeartbeats 2000000 in
theorem entry0_arg0 (c : Dev nD) : W1 m ρ c (Proc.devRef .tc main_arg0) = m ((c.tc : Thread nD τ).loc main_arg0) := by
  dsimp only [W1, hostOps0]
  after_results <;> rfl
set_option maxHeartbeats 2000000 in
theorem entry0_arg4 (c : Dev nD) : W1 m ρ c (Proc.devRef .tc main_arg4) = m ((c.tc : Thread nD τ).loc main_arg4) := by
  dsimp only [W1, hostOps0]
  after_results <;> rfl
set_option maxHeartbeats 2000000 in
theorem entry0_arg5 (c : Dev nD) : W1 m ρ c (Proc.devRef .tc main_arg5) = m ((c.tc : Thread nD τ).loc main_arg5) := by
  dsimp only [W1, hostOps0]
  after_results <;> rfl
set_option maxHeartbeats 2000000 in
theorem entry0_arg6 (c : Dev nD) : W1 m ρ c (Proc.devRef .tc main_arg6) = m ((c.tc : Thread nD τ).loc main_arg6) := by
  dsimp only [W1, hostOps0]
  after_results <;> rfl

/-! ## What the first launch leaves -/

/-- The first launch's output array is the reference's first layer. -/
theorem first_layer (c : Dev nD) :
    W2 m ρ c (Proc.devRef .tc main_v28)
      = val_main_v34 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (W2_arr m ρ c 5).trans ((Blocks.final0 (V1 m ρ) c).trans ?_)
  show combRelu (N := 50000) (n := 128) (K := 128) Blocks.z0 (W1 m ρ c (Proc.devRef .tc main_v27)) (W1 m ρ c (Proc.devRef .tc main_arg0))
    (W1 m ρ c (Proc.devRef .tc main_arg4)) (W1 m ρ c (Proc.devRef .tc main_arg5)) (W1 m ρ c (Proc.devRef .tc main_arg6)) = _
  rw [entry0_agg, entry0_arg0, entry0_arg4, entry0_arg5, entry0_arg6, aggMul_eq_aggDiv, ← v25_eq]
  exact (layer1 _ _ _ _ _ _).symm

/-! ## What the second launch finds -/

set_option maxHeartbeats 4000000 in
/-- The aggregated features the second launch is entered with: the mean aggregation of the first launch's output. -/
theorem entry1_agg (c : Dev nD) :
    W8 m ρ c (Proc.devRef .tc main_v44) = aggMul (W2 m ρ c (Proc.devRef .tc main_v28)) (m ((c.tc : Thread nD τ).loc main_arg1)) (m ((c.tc : Thread nD τ).loc main_arg2)) := by
  dsimp only [W8, W7, W6, W5, W4, W3, hostOps1, hostOps1_1, hostOps1_2, hostOps1_3, hostOps1_4, hostOps1_5]
  after_results
  rw [W2_of_ne m ρ c main_v1 (by decide), W2_of_ne m ρ c main_v3 (by decide), W2_of_ne m ρ c main_v11 (by decide),
    W2_of_ne m ρ c main_arg2 (by decide)]
  dsimp only [W1, hostOps0]
  after_results <;> rfl

set_option maxHeartbeats 4000000 in
/-- The nodes' own features the second launch is entered with: the first launch's output, untouched in between. -/
theorem entry1_own (c : Dev nD) : W8 m ρ c (Proc.devRef .tc main_v28) = W2 m ρ c (Proc.devRef .tc main_v28) := by
  dsimp only [W8, W7, W6, W5, W4, W3, hostOps1, hostOps1_1, hostOps1_2, hostOps1_3, hostOps1_4, hostOps1_5]
  after_results <;> rfl

set_option maxHeartbeats 4000000 in
/-- The second launch's first weight matrix: `W_l2` with 64 rows appended. -/
theorem entry1_Wl (c : Dev nD) : ∃ v, W8 m ρ c (Proc.devRef .tc main_v45)
    = pad S128x128 ![0, 0] ![64, 0] ![0, 0] (m ((c.tc : Thread nD τ).loc main_arg7)) v pads_S64x128_S128x128_0640_000 h_S_ := by
  refine ⟨?_, ?_⟩
  rotate_left
  · dsimp only [W8, W7, W6, W5, W4, W3, hostOps1, hostOps1_1, hostOps1_2, hostOps1_3, hostOps1_4, hostOps1_5]
    after_results
    rw [W2_of_ne m ρ c main_arg7 (by decide)]
    dsimp only [W1, hostOps0]
    after_results <;> rfl

set_option maxHeartbeats 4000000 in
/-- The second launch's bias: `b_l2` with 64 entries appended. -/
theorem entry1_b (c : Dev nD) : ∃ v, W8 m ρ c (Proc.devRef .tc main_v46)
    = pad S128 ![0] ![64] ![0] (m ((c.tc : Thread nD τ).loc main_arg8)) v pads_S64_S128_0640 h_S_ := by
  refine ⟨?_, ?_⟩
  rotate_left
  · dsimp only [W8, W7, W6, W5, W4, W3, hostOps1, hostOps1_1, hostOps1_2, hostOps1_3, hostOps1_4, hostOps1_5]
    after_results
    rw [W2_of_ne m ρ c main_arg8 (by decide)]
    dsimp only [W1, hostOps0]
    after_results <;> rfl

set_option maxHeartbeats 4000000 in
/-- The second launch's second weight matrix: `W_r2` with 64 rows appended. -/
theorem entry1_Wr (c : Dev nD) : ∃ v, W8 m ρ c (Proc.devRef .tc main_v47)
    = pad S128x128 ![0, 0] ![64, 0] ![0, 0] (m ((c.tc : Thread nD τ).loc main_arg9)) v pads_S64x128_S128x128_0640_000 h_S_ := by
  refine ⟨?_, ?_⟩
  rotate_left
  · dsimp only [W8, W7, W6, W5, W4, W3, hostOps1, hostOps1_1, hostOps1_2, hostOps1_3, hostOps1_4, hostOps1_5]
    after_results
    rw [W2_of_ne m ρ c main_arg9 (by decide)]
    dsimp only [W1, hostOps0]
    after_results <;> rfl

/-- A matrix with rows appended, read at one of its original rows, is the matrix there. -/
theorem padM_at (x : FVec Ideal S64x128 .f32) (v : FVec Ideal S_ .f32) (q' : Fin 128) (q : Fin 64) (hq : q'.val = q.val) (k : Fin 128) :
    pad S128x128 ![0, 0] ![64, 0] ![0, 0] x v pads_S64x128_S128x128_0640_000 h_S_ (ix2 q' k) = x (ix2 q k) :=
  pad_apply_of_inside _ _ _ x v pads_S64x128_S128x128_0640_000 h_S_ (ix2 q' k) (ix2 q k) (fun a => match a with
    | ⟨0, _⟩ => by show q'.val = 0 + q.val * (0 + 1); omega
    | ⟨1, _⟩ => by show k.val = 0 + k.val * (0 + 1); omega)

/-- A vector with entries appended, read at one of its original entries, is the vector there. -/
theorem padV_at (x : FVec Ideal S64 .f32) (v : FVec Ideal S_ .f32) (q' : Fin 128) (q : Fin 64) (hq : q'.val = q.val) :
    pad S128 ![0] ![64] ![0] x v pads_S64_S128_0640 h_S_ (ix1 q') = x (ix1 q) :=
  pad_apply_of_inside _ _ _ x v pads_S64_S128_0640 h_S_ (ix1 q') (ix1 q) (fun a => match a with
    | ⟨0, _⟩ => by show q'.val = 0 + q.val * (0 + 1); omega)

/-! ## The result -/

/-- The second launch's output array: the dense step of what it was entered with, 128 columns wide. -/
theorem second_out (c : Dev nD) :
    W9 m ρ c (Proc.devRef .tc main_v48)
      = comb (N := 50000) (n := 128) (K := 128) (W8 m ρ c (Proc.devRef .tc main_v44)) (W8 m ρ c (Proc.devRef .tc main_v28))
          (W8 m ρ c (Proc.devRef .tc main_v45)) (W8 m ρ c (Proc.devRef .tc main_v46)) (W8 m ρ c (Proc.devRef .tc main_v47)) :=
  (W9_arr m ρ c 5).trans (Blocks.final1 (V8 m ρ) c)

/-- The result buffer: the first 64 columns of the second launch's output array. -/
theorem out_slice (c : Dev nD) :
    W10 m ρ c (Proc.devRef .tc main_v49)
      = extractStridedSlice S50000x64 ![0, 0] (W9 m ρ c (Proc.devRef .tc main_v48)) slices_S50000x128_S50000x64_0_0 := by
  dsimp only [W10, hostOps2]
  after_results <;> rfl

/-- THE KERNEL'S RESULT is the reference's: at row `p`, column `q < 64`, the second launch's dense step reads rows `q` of
    the padded weights, which are rows `q` of the weights; its aggregated features are the mean aggregation of the first
    layer, and the first layer is the reference's. -/
theorem result_eq (c : Dev nD) :
    W10 m ρ c (Proc.devRef .tc main_v49)
      = val_main_v64 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  obtain ⟨vl, el⟩ := entry1_Wl m ρ c
  obtain ⟨vb, eb⟩ := entry1_b m ρ c
  obtain ⟨vr, er⟩ := entry1_Wr m ρ c
  rw [out_slice, layer2]
  funext i
  obtain ⟨p, q, rfl⟩ : ∃ (p : Fin 50000) (q : Fin 64), i = ix2 p q := ⟨i 0, i 1, eq_ix2 i⟩
  refine (slice2_axis1_eq 0 _ slices_S50000x128_S50000x64_0_0 p q).trans ?_
  rw [second_out, comb_apply, comb_apply, el, eb, er, entry1_agg, entry1_own, first_layer, aggMul_eq_aggDiv, ← v56_eq]
  exact combAt_congr_weights _ _ _ _ _ (m ((c.tc : Thread nD τ).loc main_arg7)) (m ((c.tc : Thread nD τ).loc main_arg8)) (m ((c.tc : Thread nD τ).loc main_arg9)) p _ q
    (fun k => padM_at _ vl _ q (Nat.zero_add _) k) (fun k => padM_at _ vr _ q (Nat.zero_add _) k) (padV_at _ vb _ q (Nat.zero_add _))

end Cert.KernelIdeal.HostSide

end
-- ==== Proof.lean ====
/-
  Two stacked mean-aggregation layers on a graph: the kernel against its reference, on the extended reals.

  Both programs compute, for node features `x` (50000 × 128), edges (source, destination, weight) and weights
  W_l1, b_l1, W_r1 (128 outputs) and W_l2, b_l2, W_r2 (64 outputs):
      agg(h)[p] = (Σ over edges into p of weight · h[source]) / max(deg p, 1),
      h   = max(agg(x) · W_l1ᵀ + x · W_r1ᵀ + b_l1, 0),
      out =      agg(h) · W_l2ᵀ + h · W_r2ᵀ + b_l2.
  The reference divides by max(deg, 1), adds the bias before the second product, and works 64 columns wide in the second
  layer. The kernel multiplies by 1 / max(deg, 1), runs each dense step blockwise over ten blocks of 5000 rows on the
  matrix unit (rounding to bf16 first, which is the identity here) with the bias added last, and in the second layer
  works 128 columns wide on weights padded with 64 zero rows, keeping the first 64 columns.

  Why they agree, with no finiteness needed: max(deg, 1) is never zero, so multiplying by its reciprocal is dividing by
  it; the three summands of a dense step commute; a dense step's value at a row reads the feature arrays along that row
  only, so the ten row blocks are blocks of one whole-array function; and a column below 64 reads only the original rows
  of the padded weights. The gather, the scatter and the degree count are the same operations of the same operands in
  both programs and are never opened.

  The three frames: the two kernel programs' are their generated frame certificates; the reference's is its generated run
  with the result dropped. The idealization rewrote nothing, so `preserves` is trivial.
-/
import proofs.«149706_j52544629899903_1_alg».proof.Defs
import proofs.«149706_j52544629899903_1_alg».proof.Proof.Gen.Kernel
import proofs.«149706_j52544629899903_1_alg».proof.Proof.Gen.Kernel.Skeleton
import proofs.«149706_j52544629899903_1_alg».proof.Proof.Gen.Kernel.Launch
import proofs.«149706_j52544629899903_1_alg».proof.Proof.Gen.Kernel.Points
import proofs.«149706_j52544629899903_1_alg».proof.Proof.Gen.Kernel.Frame
import proofs.«149706_j52544629899903_1_alg».proof.Proof.Gen.KernelIdeal
import proofs.«149706_j52544629899903_1_alg».proof.Proof.Gen.KernelIdeal.Skeleton
import proofs.«149706_j52544629899903_1_alg».proof.Proof.Gen.KernelIdeal.Launch
import proofs.«149706_j52544629899903_1_alg».proof.Proof.Gen.KernelIdeal.Points
import proofs.«149706_j52544629899903_1_alg».proof.Proof.Gen.KernelIdeal.Frame
import proofs.«149706_j52544629899903_1_alg».proof.Proof.Gen.ReferenceIdeal
import proofs.«149706_j52544629899903_1_alg».proof.Proof.Gen.ReferenceIdeal.Run
import proofs.«149706_j52544629899903_1_alg».proof.Proof.Gen.ReferenceIdeal.Read
import proofs.«149706_j52544629899903_1_alg».proof.Proof.Gen.Pre_finite_inputs
import proofs.«149706_j52544629899903_1_alg».proof.Proof.KernelRun
import proofs.«149706_j52544629899903_1_alg».proof.Proof.KernelHost
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the arguments both programs end with the reference's value of those arguments in their
    result buffers: the kernel by `HostSide.result_eq`, the reference by its own run. -/
theorem algebraic : Cert.algebraic_KernelIdeal_ReferenceIdeal := by
  intro m ρ m' ρ' _ hagree
  refine ⟨fun c => Cert.ReferenceIdeal.Read.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostSide.result_eq m ρ c), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    obtain ⟨e0, e1, e2, -, e4, e5, e6, e7, e8, e9⟩ := hagree c
    rw [(h c).1, Cert.ReferenceIdeal.Read.val_main_v64_eq, e0, e1, e2, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
